-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x64x256x256 : Shape := ⟨4, ![8, 64, 256, 256]⟩
abbrev S_ : Shape := ⟨0, ![]⟩

class Facts : Prop where
  bcast_S_S8x64x256x256 : S_.BroadcastsInDim S8x64x256x256 (![] : Fin 0 → Fin S8x64x256x256.rank)
  reducesTo_S8x64x256x256_S_d0_1_2_3 : S8x64x256x256.ReducesTo [0, 1, 2, 3] S_
  h_S_ : 0 < S_.numel

variable [Facts]

def fn {F : FTy → Type} [FloatOps F] (main_arg0 : FVec F S8x64x256x256 .f32) : IVec S_ 1 :=
  let main_v0 : FVec F S8x64x256x256 .f32 := Host.absf main_arg0
  let main_cst : FVec F S_ .f32 := constant S_ .f32 0x7F800000#32
  let main_v1 : FVec F S8x64x256x256 .f32 := broadcastInDim S8x64x256x256 ![] bcast_S_S8x64x256x256 main_cst
  let main_v2 : IVec S8x64x256x256 1 := cmpf .olt main_v0 main_v1
  let main_c : IVec S_ 1 := constantI S_ 1 1#1
  let main_v3 : IVec S_ 1 := (fun x v => Host.reduce IntOp.andi x v reducesTo_S8x64x256x256_S_d0_1_2_3 h_S_) main_v2 main_c
  main_v3
-- ==== Kernel.lean ====
abbrev S8x64x256x256 : Shape := ⟨4, ![8, 64, 256, 256]⟩
abbrev S8x32x128x128 : Shape := ⟨4, ![8, 32, 128, 128]⟩
abbrev S1x16x256x256 : Shape := ⟨4, ![1, 16, 256, 256]⟩
abbrev S1x8x128x128 : Shape := ⟨4, ![1, 8, 128, 128]⟩
abbrev S1x2x256x256 : Shape := ⟨4, ![1, 2, 256, 256]⟩
abbrev S2x256x256 : Shape := ⟨3, ![2, 256, 256]⟩
abbrev S1x256x256 : Shape := ⟨3, ![1, 256, 256]⟩
abbrev S256x256 : Shape := ⟨2, ![256, 256]⟩
abbrev S128x2x256 : Shape := ⟨3, ![128, 2, 256]⟩
abbrev S2x128x256 : Shape := ⟨3, ![2, 128, 256]⟩
abbrev S1x128x256 : Shape := ⟨3, ![1, 128, 256]⟩
abbrev S128x256 : Shape := ⟨2, ![128, 256]⟩
abbrev S128x128x2 : Shape := ⟨3, ![128, 128, 2]⟩
abbrev S2x128x128 : Shape := ⟨3, ![2, 128, 128]⟩
abbrev S1x128x128 : Shape := ⟨3, ![1, 128, 128]⟩
abbrev S128x128 : Shape := ⟨2, ![128, 128]⟩
abbrev S1x1x128x128 : Shape := ⟨4, ![1, 1, 128, 128]⟩

abbrev nBuf : Space → Nat
  | .hbm => 2
  | .vmem => 4
  | .smem => 0
  | _ => 0

abbrev bufTy : (tb : Table) → Fin (tcTables nBuf tb) → BufTy
  | .hbm, ⟨0, _⟩ => ⟨S8x64x256x256, .f32⟩
  | .hbm, ⟨1, _⟩ => ⟨S8x32x128x128, .f32⟩
  | .local _ .vmem, ⟨0, _⟩ => ⟨S1x16x256x256, .f32⟩
  | .local _ .vmem, ⟨1, _⟩ => ⟨S1x16x256x256, .f32⟩
  | .local _ .vmem, ⟨2, _⟩ => ⟨S1x8x128x128, .f32⟩
  | .local _ .vmem, ⟨3, _⟩ => ⟨S1x8x128x128, .f32⟩
  | _, _ => ⟨S8x64x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![8, 4], ![false, false]⟩

@[reducible] def k0_t1_loop : Scf.Loop 32 :=
  let c0_i32 : BitVec 32 := 0#32
  let c8_i32 : BitVec 32 := 8#32
  let v0 : BitVec 32 := Scalar.addi c0_i32 c8_i32
  let c1_i32 : BitVec 32 := 1#32
  ⟨c0_i32, v0, c1_i32⟩
def k0_off1 (k0_t1 : Fin k0_t1_loop.trips) : Fin 4 → Nat :=
  let c0 : Index := 0#32
  let c2_i32 : BitVec 32 := 2#32
  let c0_i32 : BitVec 32 := 0#32
  let c1_i32 : BitVec 32 := 1#32
  let arg4 : BitVec 32 := Scf.iv c0_i32 c1_i32 k0_t1
  let v1 : BitVec 32 := Scalar.muli c2_i32 arg4
  let v2 : Index := Scalar.indexCast v1
  let c0_1 : Index := 0#32
  let c0_2 : Index := 0#32
  ![0, v2.toNat, 0, 0]
def k0_off2 (k0_t1 : Fin k0_t1_loop.trips) : Fin 4 → Nat :=
  let c0_3 : Index := 0#32
  let c0_i32 : BitVec 32 := 0#32
  let c1_i32 : BitVec 32 := 1#32
  let arg4 : BitVec 32 := Scf.iv c0_i32 c1_i32 k0_t1
  let v24 : Index := Scalar.indexCast arg4
  let c0_4 : Index := 0#32
  let c0_5 : Index := 0#32
  ![0, v24.toNat, 0, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x16x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  h_S1x2x256x256 : 0 < S1x2x256x256.numel
  shapeCasts_S1x2x256x256_S2x256x256 : S1x2x256x256.ShapeCasts S2x256x256
  slices_S2x256x256_o0_0_0_S1x256x256 : S2x256x256.Slices ![0, 0, 0] S1x256x256
  shapeCasts_S1x256x256_S256x256 : S1x256x256.ShapeCasts S256x256
  slices_S2x256x256_o1_0_0_S1x256x256 : S2x256x256.Slices ![1, 0, 0] S1x256x256
  shapeCasts_S256x256_S128x2x256 : S256x256.ShapeCasts S128x2x256
  transposes_S128x2x256_p1_0_2_S2x128x256 : S128x2x256.Transposes [1, 0, 2] S2x128x256
  slices_S2x128x256_o0_0_0_S1x128x256 : S2x128x256.Slices ![0, 0, 0] S1x128x256
  shapeCasts_S1x128x256_S128x256 : S1x128x256.ShapeCasts S128x256
  slices_S2x128x256_o1_0_0_S1x128x256 : S2x128x256.Slices ![1, 0, 0] S1x128x256
  shapeCasts_S128x256_S128x128x2 : S128x256.ShapeCasts S128x128x2
  transposes_S128x128x2_p2_0_1_S2x128x128 : S128x128x2.Transposes [2, 0, 1] S2x128x128
  slices_S2x128x128_o0_0_0_S1x128x128 : S2x128x128.Slices ![0, 0, 0] S1x128x128
  shapeCasts_S1x128x128_S128x128 : S1x128x128.ShapeCasts S128x128
  slices_S2x128x128_o1_0_0_S1x128x128 : S2x128x128.Slices ![1, 0, 0] S1x128x128
  h_S1x1x128x128 : 0 < S1x1x128x128.numel
  shapeCasts_S1x1x128x128_S128x128 : S1x1x128x128.ShapeCasts S128x128
  shapeCasts_S128x128_S1x1x128x128 : S128x128.ShapeCasts S1x1x128x128
  hrank0 : 0 < grid0.rank
  k0_t1_ok : k0_t1_loop.OK
  k0_off1_inb : ∀ k0_t1 : Fin k0_t1_loop.trips, ∀ a, (k0_off1 k0_t1) a + S1x2x256x256.size a ≤ S1x16x256x256.size a
  k0_off2_inb : ∀ k0_t1 : Fin k0_t1_loop.trips, ∀ a, (k0_off2 k0_t1) a + S1x1x128x128.size a ≤ S1x8x128x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x256x256.size a ≤ S8x64x256x256.size a
  hwx0_0 : ∀ i : grid0.Coords, EltTy.bits .f32 = 32 ∨ (Rect.block (s := S8x64x256x256) S1x16x256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8x128x128.size a ≤ S8x32x128x128.size a
  hwx0_1 : ∀ i : grid0.Coords, EltTy.bits .f32 = 32 ∨ (Rect.block (s := S8x32x128x128) S1x8x128x128.size (cc0_transform_1 i) (hinb0_1 i)).WholeWords (EltTy.packing .f32)

variable [Facts₀]

abbrev win0_0 : Pipeline.Window sig grid0 :=
  Pipeline.Window.ofSpec (Memref.whole main_arg0) S1x16x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x8x128x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8x64x256x256 : Shape := ⟨4, ![8, 64, 256, 256]⟩
abbrev S_ : Shape := ⟨0, ![]⟩
abbrev S8x32x128x128 : Shape := ⟨4, ![8, 32, 128, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x64x256x256, .f32⟩
  | .hbm, ⟨1, _⟩ => ⟨S_, .f32⟩
  | .hbm, ⟨2, _⟩ => ⟨S8x32x128x128, .f32⟩
  | _, _ => ⟨S8x64x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  reduceWindows_S8x64x256x256_S8x32x128x128_w1s1p0_0_w2s2p0_0_w2s2p0_0_w2s2p0_0 : S8x64x256x256.ReduceWindows (![1, 2, 2, 2] : Fin 4 → Nat) ![1, 2, 2, 2] ![0, 0, 0, 0] ![0, 0, 0, 0] S8x32x128x128
  h_S_ : 0 < S_.numel

variable [Facts₀]

class Facts : Prop extends Facts₀ where

variable [Facts]
-- ==== Proof.PoolSpec.lean ====
/-
  Max pooling with a 2 × 2 × 2 window and stride 2, as a function on the extended reals, index by index.

  For an array `x` of shape [B, 2D, 256, 256] the pooled array, of shape [B, D, 128, 128], holds at (b, d, h, w) the
  greatest of the eight entries x(b, 2d + i, 2h + j, 2w + l) with i, j, l ∈ {0, 1}. The greatest of eight numbers does not
  depend on how the pairwise maxima are bracketed or ordered, and the least element −∞ may be put in front without
  changing it: `max8_of_foldl`. Nothing here needs the entries to be finite.
-/
import Idealize.ShloMosaic.PureOps.Ideal
import Idealize.ShloMosaic.Lib.ValueIdx

noncomputable section

namespace Cert.Pool

open Idealize.ShloMosaic Idealize.ShloMosaic.ValueIdx

/-- The greatest of eight extended reals a(i, j, l), i, j, l ∈ {0, 1}: first over i (the depth pair), then over j (the
    row pair), then over l (the column pair). -/
def max8 (a : Fin 2 → Fin 2 → Fin 2 → EReal) : EReal :=
  max (max (max (a 0 0 0) (a 1 0 0)) (max (a 0 1 0) (a 1 1 0)))
      (max (max (a 0 0 1) (a 1 0 1)) (max (a 0 1 1) (a 1 1 1)))

/-- Taking the maxima one after the other from −∞, with (i, j, l) running in lexicographic order, gives the same
    number: `max` is associative and commutative and −∞ is its identity. -/
theorem max8_of_foldl (a : Fin 2 → Fin 2 → Fin 2 → EReal) :
    max (max (max (max (max (max (max (max ⊥ (a 0 0 0)) (a 0 0 1)) (a 0 1 0)) (a 0 1 1)) (a 1 0 0)) (a 1 0 1)) (a 1 1 0)) (a 1 1 1)
      = max8 a := by
  unfold max8
  rw [max_eq_right (bot_le : (⊥ : EReal) ≤ a 0 0 0)]
  ac_rfl

/-- Entry 2d + i of an axis of extent 16, for d below 8. -/
def up16 (d : Fin 8) (i : Fin 2) : Fin 16 := ⟨2 * d.val + i.val, by omega⟩
/-- Entry 2d + i of an axis of extent 64, for d below 32. -/
def up64 (d : Fin 32) (i : Fin 2) : Fin 64 := ⟨2 * d.val + i.val, by omega⟩
/-- Entry 2h + j of an axis of extent 256, for h below 128. -/
def up256 (h : Fin 128) (j : Fin 2) : Fin 256 := ⟨2 * h.val + j.val, by omega⟩

@[simp] theorem up16_val (d : Fin 8) (i : Fin 2) : (up16 d i).val = 2 * d.val + i.val := rfl
@[simp] theorem up64_val (d : Fin 32) (i : Fin 2) : (up64 d i).val = 2 * d.val + i.val := rfl
@[simp] theorem up256_val (h : Fin 128) (j : Fin 2) : (up256 h j).val = 2 * h.val + j.val := rfl

/-- The whole array pooled: [8, 64, 256, 256] → [8, 32, 128, 128]. -/
def pooled (x : (⟨4, ![8, 64, 256, 256]⟩ : Shape).Idx → EReal) : (⟨4, ![8, 32, 128, 128]⟩ : Shape).Idx → EReal :=
  fun q => max8 fun i j l => x (ix4 (q 0) (up64 (q 1) i) (up256 (q 2) j) (up256 (q 3) l))

/-- One block of sixteen depth planes pooled: [1, 16, 256, 256] → [1, 8, 128, 128]. -/
def pooledBlock (x : (⟨4, ![1, 16, 256, 256]⟩ : Shape).Idx → EReal) : (⟨4, ![1, 8, 128, 128]⟩ : Shape).Idx → EReal :=
  fun q => max8 fun i j l => x (ix4 (q 0) (up16 (q 1) i) (up256 (q 2) j) (up256 (q 3) l))

/-- One pair of depth planes pooled: [1, 2, 256, 256] → [1, 1, 128, 128]. -/
def pooledPair (x : (⟨4, ![1, 2, 256, 256]⟩ : Shape).Idx → EReal) : (⟨4, ![1, 1, 128, 128]⟩ : Shape).Idx → EReal :=
  fun q => max8 fun i j l => x (ix4 (q 0) i (up256 (q 2) j) (up256 (q 3) l))

end Cert.Pool

end
-- ==== Proof.PoolWindow.lean ====
/-
  The host's windowed reduction, read at an index.

  A reduction of an [8, 64, 256, 256] array by `max` over windows of extents (1, 2, 2, 2) at strides (1, 2, 2, 2), without
  padding, starting from −∞, visits at the result index (b, d, h, w) the eight window positions (0, i, j, l) in lexicographic
  order and takes the maximum, one entry after the other, of x(b, 2d + i, 2h + j, 2w + l). Every position lies inside the
  array (2d + i < 64, and so on), so no padding value is ever read. Since the order and the starting −∞ do not matter
  (`max8_of_foldl`), the result is the pooled array: `reduceWindow_max_eq_pooled`.
-/
import proofs.«112044_j13537736917667_2_alg».proof.Proof.PoolSpec
import Idealize.ShloMosaic.PureOps.Ideal
import Idealize.ShloMosaic.Lib.ValueIdx

noncomputable section

namespace Cert.Pool

open Idealize.ShloMosaic Idealize.ShloMosaic.ValueIdx

/-- The window as a shape: its positions are the indices of a [1, 2, 2, 2] array. -/
abbrev Win : Shape := ⟨4, ![1, 2, 2, 2]⟩

/-- The window has eight positions, numbered 0 to 7 in lexicographic order. -/
theorem win_range : List.finRange Win.numel
    = [⟨0, by decide⟩, ⟨1, by decide⟩, ⟨2, by decide⟩, ⟨3, by decide⟩, ⟨4, by decide⟩, ⟨5, by decide⟩, ⟨6, by decide⟩, ⟨7, by decide⟩] := by
  decide

/-- Position n has the coordinates (0, n / 4 mod 2, n / 2 mod 2, n mod 2): the binary digits of n. -/
theorem win_digits : ∀ (n : Fin Win.numel) (a : Fin 4),
    (Win.rowMajor.symm n a).val = (![0, n.val / 4 % 2, n.val / 2 % 2, n.val % 2] : Fin 4 → Nat) a := by
  decide

/-- The binary digit of n of weight k. -/
def digit (n k : Nat) : Fin 2 := ⟨n / k % 2, Nat.mod_lt _ (by decide)⟩

/-- The f32 word 0xFF800000 is −∞, the least extended real. -/
theorem ninf_eq_bot : Ideal.ofBits .f32 0xFF800000#32 = (⊥ : EReal) := by simp [Ideal.ofBits, Ideal.ieee]

/-- The windowed maximum from −∞ is the pooled array. -/
theorem reduceWindow_max_eq_pooled (x : (⟨4, ![8, 64, 256, 256]⟩ : Shape).Idx → EReal) (init : (⟨0, ![]⟩ : Shape).Idx → EReal)
    (h : (⟨4, ![8, 64, 256, 256]⟩ : Shape).ReduceWindows (![1, 2, 2, 2] : Fin 4 → Nat) ![1, 2, 2, 2] ![0, 0, 0, 0] ![0, 0, 0, 0] ⟨4, ![8, 32, 128, 128]⟩)
    (hu : 0 < (⟨0, ![]⟩ : Shape).numel) (hinit : init (Shape.Idx.first hu) = ⊥) :
    Host.reduceWindow (FloatOps.maximumf (F := Ideal) (φ := .f32)) ![1, 2, 2, 2] ![1, 2, 2, 2] ![0, 0, 0, 0] ![0, 0, 0, 0] x init h hu
      = pooled x := by
  funext q
  obtain ⟨b, d, r, w, rfl⟩ : ∃ (b : Fin 8) (d : Fin 32) (r : Fin 128) (w : Fin 128), q = ix4 b d r w :=
    ⟨q 0, q 1, q 2, q 3, eq_ix4 q⟩
  unfold Host.reduceWindow
  dsimp only
  refine (List.foldl_ext _ (fun (acc : EReal) (n : Fin Win.numel) =>
      max acc (x (ix4 b (up64 d (digit n.val 4)) (up256 r (digit n.val 2)) (up256 w (digit n.val 1))))) _ (fun acc n _ => ?_)).trans ?_
  · -- one window position: it is inside the array, and it is the entry the digits of n name
    show max acc _ = max acc _
    congr 1
    have hb : b.val < 8 := b.isLt
    have hd : d.val < 32 := d.isLt
    have hr : r.val < 128 := r.isLt
    have hw : w.val < 128 := w.isLt
    have d0 : (Win.rowMajor.symm n 0).val = 0 := win_digits n 0
    have d1 : (Win.rowMajor.symm n 1).val = n.val / 4 % 2 := win_digits n 1
    have d2 : (Win.rowMajor.symm n 2).val = n.val / 2 % 2 := win_digits n 2
    have d3 : (Win.rowMajor.symm n 3).val = n.val % 2 := win_digits n 3
    rw [dif_pos]
    · refine congrArg x (funext fun a => Fin.ext ?_)
      match a with
      | ⟨0, _⟩ => show b.val * 1 + (Win.rowMajor.symm n 0).val - 0 = b.val; omega
      | ⟨1, _⟩ => show d.val * 2 + (Win.rowMajor.symm n 1).val - 0 = 2 * d.val + n.val / 4 % 2; omega
      | ⟨2, _⟩ => show r.val * 2 + (Win.rowMajor.symm n 2).val - 0 = 2 * r.val + n.val / 2 % 2; omega
      | ⟨3, _⟩ => show w.val * 2 + (Win.rowMajor.symm n 3).val - 0 = 2 * w.val + n.val / 1 % 2; omega
    · intro a
      match a with
      | ⟨0, _⟩ => show 0 ≤ b.val * 1 + (Win.rowMajor.symm n 0).val ∧ b.val * 1 + (Win.rowMajor.symm n 0).val - 0 < 8; omega
      | ⟨1, _⟩ => show 0 ≤ d.val * 2 + (Win.rowMajor.symm n 1).val ∧ d.val * 2 + (Win.rowMajor.symm n 1).val - 0 < 64; omega
      | ⟨2, _⟩ => show 0 ≤ r.val * 2 + (Win.rowMajor.symm n 2).val ∧ r.val * 2 + (Win.rowMajor.symm n 2).val - 0 < 256; omega
      | ⟨3, _⟩ => show 0 ≤ w.val * 2 + (Win.rowMajor.symm n 3).val ∧ w.val * 2 + (Win.rowMajor.symm n 3).val - 0 < 256; omega
  · -- the eight positions in order
    rw [win_range]
    simp only [List.foldl_cons, List.foldl_nil]
    rw [hinit]
    exact max8_of_foldl (fun i j l => x (ix4 b (up64 d i) (up256 r j) (up256 w l)))

end Cert.Pool

end
-- ==== Proof.PoolBody.lean ====
/-
  What one trip of the kernel's loop computes from the pair of depth planes it loads, read at an index.

  The trip takes a [1, 2, 256, 256] block v and makes a [1, 1, 128, 128] block in three steps, each a pairwise maximum of
  two halves of the previous value:
    depth   : m₁(r, c) = max v(0, 0, r, c) v(0, 1, r, c)                                   [256, 256]
    rows    : m₂(h, c) = max m₁(2h, c) m₁(2h + 1, c)      (rows split [128, 2], the 2 moved to the front)   [128, 256]
    columns : m₃(h, w) = max m₂(h, 2w) m₂(h, 2w + 1)      (columns split [128, 2], the 2 moved to the front) [128, 128]
  and stores m₃ as a [1, 1, 128, 128] block. So at (0, 0, h, w) the block holds the greatest of the eight entries
  v(0, i, 2h + j, 2w + l): `pay_apply`.
-/
import proofs.«112044_j13537736917667_2_alg».proof.Proof.Gen.KernelIdeal.Skeleton
import proofs.«112044_j13537736917667_2_alg».proof.Proof.PoolSpec
import Idealize.ShloMosaic.Lib.Pipeline.Value
import Idealize.ShloMosaic.Lib.ValueIdx

noncomputable section

namespace Cert.KernelIdeal.Body

open Cert.KernelIdeal Cert.KernelIdeal.Gen Idealize.ShloMosaic Idealize.ShloMosaic.ValueIdx Cert.Pool

/-- The depth step: the two planes of the loaded pair, entry by entry. -/
def depthMax (v : Vec Ideal S1x2x256x256 .f32) : FVec Ideal S256x256 .f32 :=
  maximumf
    (shapeCast S256x256 (extractStridedSlice S1x256x256 ![0, 0, 0] (shapeCast S2x256x256 v shapeCasts_S1x2x256x256_S2x256x256)
      slices_S2x256x256_o0_0_0_S1x256x256) shapeCasts_S1x256x256_S256x256)
    (shapeCast S256x256 (extractStridedSlice S1x256x256 ![1, 0, 0] (shapeCast S2x256x256 v shapeCasts_S1x2x256x256_S2x256x256)
      slices_S2x256x256_o1_0_0_S1x256x256) shapeCasts_S1x256x256_S256x256)

/-- The row step: rows 2h and 2h + 1 of a [256, 256] value. -/
def rowMax (u : FVec Ideal S256x256 .f32) : FVec Ideal S128x256 .f32 :=
  maximumf
    (shapeCast S128x256 (extractStridedSlice S1x128x256 ![0, 0, 0]
      (transpose S2x128x256 [1, 0, 2] (shapeCast S128x2x256 u shapeCasts_S256x256_S128x2x256) transposes_S128x2x256_p1_0_2_S2x128x256)
      slices_S2x128x256_o0_0_0_S1x128x256) shapeCasts_S1x128x256_S128x256)
    (shapeCast S128x256 (extractStridedSlice S1x128x256 ![1, 0, 0]
      (transpose S2x128x256 [1, 0, 2] (shapeCast S128x2x256 u shapeCasts_S256x256_S128x2x256) transposes_S128x2x256_p1_0_2_S2x128x256)
      slices_S2x128x256_o1_0_0_S1x128x256) shapeCasts_S1x128x256_S128x256)

/-- The column step: columns 2w and 2w + 1 of a [128, 256] value, stored as a [1, 1, 128, 128] block. -/
def colMax (u : FVec Ideal S128x256 .f32) : FVec Ideal S1x1x128x128 .f32 :=
  shapeCast S1x1x128x128
    (maximumf
      (shapeCast S128x128 (extractStridedSlice S1x128x128 ![0, 0, 0]
        (transpose S2x128x128 [2, 0, 1] (shapeCast S128x128x2 u shapeCasts_S128x256_S128x128x2) transposes_S128x128x2_p2_0_1_S2x128x128)
        slices_S2x128x128_o0_0_0_S1x128x128) shapeCasts_S1x128x128_S128x128)
      (shapeCast S128x128 (extractStridedSlice S1x128x128 ![1, 0, 0]
        (transpose S2x128x128 [2, 0, 1] (shapeCast S128x128x2 u shapeCasts_S128x256_S128x128x2) transposes_S128x128x2_p2_0_1_S2x128x128)
        slices_S2x128x128_o1_0_0_S1x128x128) shapeCasts_S1x128x128_S128x128))
    shapeCasts_S128x128_S1x1x128x128

/-- The trip's payload is the three steps in turn. -/
theorem pay_eq (v : Vec Ideal S1x2x256x256 .f32) : k0_pay1 (F := Ideal) v = colMax (rowMax (depthMax v)) := rfl

/-- Plane i of the pair at (r, c). -/
theorem plane_apply (v : Vec Ideal S1x2x256x256 .f32) (i : Fin 2) (off : Fin 3 → Nat) (hoff : off = ![i.val, 0, 0])
    (hs : S2x256x256.Slices off S1x256x256) (r c : Fin 256) :
    shapeCast S256x256 (extractStridedSlice S1x256x256 off (shapeCast S2x256x256 v shapeCasts_S1x2x256x256_S2x256x256) hs)
      shapeCasts_S1x256x256_S256x256 (ix2 r c) = v (ix4 0 i r c) := by
  subst hoff
  refine (shapeCast_apply _ _ (ix2 r c) (ix3 0 r c) ?_).trans ?_
  · rw [Shape.rowMajor_val_three, Shape.rowMajor_val_two]
    show ((0 * 256 + r.val) * 256 + c.val) = r.val * 256 + c.val
    omega
  refine (extractStridedSlice_apply _ _ _ (ix3 0 r c) (ix3 i r c) ?_).trans ?_
  · intro a
    match a with
    | ⟨0, _⟩ => show i.val = i.val + 0; omega
    | ⟨1, _⟩ => show r.val = 0 + r.val; omega
    | ⟨2, _⟩ => show c.val = 0 + c.val; omega
  refine shapeCast_apply _ _ (ix3 i r c) (ix4 0 i r c) ?_
  rw [Shape.rowMajor_val_four, Shape.rowMajor_val_three]
  show (((0 * 2 + i.val) * 256 + r.val) * 256 + c.val) = (i.val * 256 + r.val) * 256 + c.val
  omega

theorem depthMax_apply (v : Vec Ideal S1x2x256x256 .f32) (r c : Fin 256) :
    depthMax v (ix2 r c) = max (v (ix4 0 0 r c)) (v (ix4 0 1 r c)) := by
  unfold depthMax
  exact congrArg₂ max (plane_apply v 0 _ rfl _ r c) (plane_apply v 1 _ rfl _ r c)

/-- Half j of the rows, at (h, c): row 2h + j. -/
theorem rowHalf_apply (u : FVec Ideal S256x256 .f32) (j : Fin 2) (off : Fin 3 → Nat) (hoff : off = ![j.val, 0, 0])
    (hs : S2x128x256.Slices off S1x128x256) (h : Fin 128) (c : Fin 256) :
    shapeCast S128x256 (extractStridedSlice S1x128x256 off
      (transpose S2x128x256 [1, 0, 2] (shapeCast S128x2x256 u shapeCasts_S256x256_S128x2x256) transposes_S128x2x256_p1_0_2_S2x128x256)
      hs) shapeCasts_S1x128x256_S128x256 (ix2 h c) = u (ix2 (up256 h j) c) := by
  subst hoff
  refine (shapeCast_apply _ _ (ix2 h c) (ix3 0 h c) ?_).trans ?_
  · rw [Shape.rowMajor_val_three, Shape.rowMajor_val_two]
    show ((0 * 128 + h.val) * 256 + c.val) = h.val * 256 + c.val
    omega
  refine (extractStridedSlice_apply _ _ _ (ix3 0 h c) (ix3 j h c) ?_).trans ?_
  · intro a
    match a with
    | ⟨0, _⟩ => show j.val = j.val + 0; omega
    | ⟨1, _⟩ => show h.val = 0 + h.val; omega
    | ⟨2, _⟩ => show c.val = 0 + c.val; omega
  refine (transpose_apply _ _ _ (ix3 j h c) (ix3 h j c) ?_).trans ?_
  · intro b
    match b with
    | ⟨0, _⟩ => rfl
    | ⟨1, _⟩ => rfl
    | ⟨2, _⟩ => rfl
  refine shapeCast_apply _ _ (ix3 h j c) (ix2 (up256 h j) c) ?_
  rw [Shape.rowMajor_val_two, Shape.rowMajor_val_three]
  show (2 * h.val + j.val) * 256 + c.val = (h.val * 2 + j.val) * 256 + c.val
  omega

theorem rowMax_apply (u : FVec Ideal S256x256 .f32) (h : Fin 128) (c : Fin 256) :
    rowMax u (ix2 h c) = max (u (ix2 (up256 h 0) c)) (u (ix2 (up256 h 1) c)) := by
  unfold rowMax
  exact congrArg₂ max (rowHalf_apply u 0 _ rfl _ h c) (rowHalf_apply u 1 _ rfl _ h c)

/-- Half l of the columns, at (h, w): column 2w + l. -/
theorem colHalf_apply (u : FVec Ideal S128x256 .f32) (l : Fin 2) (off : Fin 3 → Nat) (hoff : off = ![l.val, 0, 0])
    (hs : S2x128x128.Slices off S1x128x128) (h w : Fin 128) :
    shapeCast S128x128 (extractStridedSlice S1x128x128 off
      (transpose S2x128x128 [2, 0, 1] (shapeCast S128x128x2 u shapeCasts_S128x256_S128x128x2) transposes_S128x128x2_p2_0_1_S2x128x128)
      hs) shapeCasts_S1x128x128_S128x128 (ix2 h w) = u (ix2 h (up256 w l)) := by
  subst hoff
  refine (shapeCast_apply _ _ (ix2 h w) (ix3 0 h w) ?_).trans ?_
  · rw [Shape.rowMajor_val_three, Shape.rowMajor_val_two]
    show ((0 * 128 + h.val) * 128 + w.val) = h.val * 128 + w.val
    omega
  refine (extractStridedSlice_apply _ _ _ (ix3 0 h w) (ix3 l h w) ?_).trans ?_
  · intro a
    match a with
    | ⟨0, _⟩ => show l.val = l.val + 0; omega
    | ⟨1, _⟩ => show h.val = 0 + h.val; omega
    | ⟨2, _⟩ => show w.val = 0 + w.val; omega
  refine (transpose_apply _ _ _ (ix3 l h w) (ix3 h w l) ?_).trans ?_
  · intro b
    match b with
    | ⟨0, _⟩ => rfl
    | ⟨1, _⟩ => rfl
    | ⟨2, _⟩ => rfl
  refine shapeCast_apply _ _ (ix3 h w l) (ix2 h (up256 w l)) ?_
  rw [Shape.rowMajor_val_two, Shape.rowMajor_val_three]
  show h.val * 256 + (2 * w.val + l.val) = (h.val * 128 + w.val) * 2 + l.val
  omega

theorem colMax_apply (u : FVec Ideal S128x256 .f32) (h w : Fin 128) :
    colMax u (ix4 0 0 h w) = max (u (ix2 h (up256 w 0))) (u (ix2 h (up256 w 1))) := by
  unfold colMax
  refine (shapeCast_apply _ _ (ix4 0 0 h w) (ix2 h w) ?_).trans ?_
  · rw [Shape.rowMajor_val_two, Shape.rowMajor_val_four]
    show h.val * 128 + w.val = ((0 * 1 + 0) * 128 + h.val) * 128 + w.val
    omega
  exact congrArg₂ max (colHalf_apply u 0 _ rfl _ h w) (colHalf_apply u 1 _ rfl _ h w)

/-- The trip's payload at (0, 0, h, w) is the greatest of the eight entries of the pair under the window at (h, w). -/
theorem pay_apply (v : Vec Ideal S1x2x256x256 .f32) (q : S1x1x128x128.Idx) :
    k0_pay1 (F := Ideal) v q = pooledPair v q := by
  obtain ⟨a, b, h, w, rfl⟩ : ∃ (a : Fin 1) (b : Fin 1) (h : Fin 128) (w : Fin 128), q = ix4 a b h w :=
    ⟨q 0, q 1, q 2, q 3, eq_ix4 q⟩
  obtain rfl : a = 0 := Subsingleton.elim _ _
  obtain rfl : b = 0 := Subsingleton.elim _ _
  rw [pay_eq, colMax_apply, rowMax_apply, rowMax_apply, depthMax_apply, depthMax_apply, depthMax_apply, depthMax_apply]
  rfl

end Cert.KernelIdeal.Body

end
-- ==== Proof.PoolBlock.lean ====
/-
  What the kernel's body leaves in the output's staging block, as a function of the input's staging block.

  The body is a loop of eight trips. Trip k loads depth planes 2k and 2k + 1 of the [1, 16, 256, 256] input block and stores
  their pooled [1, 1, 128, 128] plane as depth plane k of the [1, 8, 128, 128] output block. So each stored piece, at its own
  index y, is the pooled block at the place the piece puts y (`trip_pieces`, `loop_pieces`); the eight pieces cover the
  output block; hence the block ends as the pooled block of the input block, whatever it held before: `out_eq`.
-/
import proofs.«112044_j13537736917667_2_alg».proof.Proof.Gen.KernelIdeal.Frame
import proofs.«112044_j13537736917667_2_alg».proof.Proof.PoolBody
import Idealize.ShloMosaic.Lib.Writes
import Idealize.ShloMosaic.Lib.Pipeline.FrameBody

set_option maxRecDepth 16384

noncomputable section

namespace Cert.KernelIdeal.Block

open Cert.KernelIdeal Cert.KernelIdeal.Gen Idealize.ShloMosaic Idealize.ShloMosaic.TcCoe Idealize.ShloMosaic.ValueIdx
open Idealize.SL.Sem Cert.Pool

/-- The piece trip k stores is the pooled block, read where the piece lies: depth plane k, from planes 2k and 2k + 1. -/
theorem trip_pieces (𝒱 : Variants) (c : Dev nD) (bd : Option 𝒱.V) (i : grid0.Coords)
    (arg2 : Memref sig .tc .vmem S1x16x256x256 .f32) (harg2 : arg2.IsWhole) (arg3 : Memref sig .tc .vmem S1x8x128x128 .f32) (harg3 : arg3.IsWhole)
    (x0 : Vec Ideal S1x16x256x256 .f32) (k : Fin k0_t1_loop.trips) :
    ∀ p ∈ tripL_k0_t1 (F := Ideal) 𝒱 c bd i arg2 harg2 arg3 harg3 (harg2.unread x0) k,
      ∀ y : p.1.shape.Idx, p.2 y = pooledBlock x0 (p.1.emb y) := by
  unfold tripL_k0_t1 trip_k0_t1
  dsimp only
  intro p hp y
  obtain rfl := List.mem_singleton.mp hp
  refine (Body.pay_apply _ _).trans ?_
  unfold pooledPair pooledBlock
  congr 1
  funext a j l
  rw [View.readAt_eq_ld, harg2.read_unread]
  refine congrArg x0 (funext fun ax => Fin.ext ?_)
  -- the load's offsets are (0, 2k, 0, 0), the store's (0, k, 0, 0)
  have l0 : k0_off1 k 0 = 0 := congrFun (k0_off1_eq k) 0
  have l1 : k0_off1 k 1 = 2 * k.val := congrFun (k0_off1_eq k) 1
  have l2 : k0_off1 k 2 = 0 := congrFun (k0_off1_eq k) 2
  have l3 : k0_off1 k 3 = 0 := congrFun (k0_off1_eq k) 3
  have s0 : k0_off2 k 0 = 0 := congrFun (k0_off2_eq k) 0
  have s1 : k0_off2 k 1 = k.val := congrFun (k0_off2_eq k) 1
  have s2 : k0_off2 k 2 = 0 := congrFun (k0_off2_eq k) 2
  have s3 : k0_off2 k 3 = 0 := congrFun (k0_off2_eq k) 3
  have hy0 : (y 0).val < 1 := (y 0).isLt
  have hy1 : (y 1).val < 1 := (y 1).isLt
  match ax with
  | ⟨0, _⟩ =>
    show k0_off1 k 0 + 1 * (y 0).val = k0_off2 k 0 + 1 * (y 0).val
    omega
  | ⟨1, _⟩ =>
    show k0_off1 k 1 + 1 * a.val = 2 * (k0_off2 k 1 + 1 * (y 1).val) + a.val
    omega
  | ⟨2, _⟩ =>
    show k0_off1 k 2 + 1 * (2 * (y 2).val + j.val) = 2 * (k0_off2 k 2 + 1 * (y 2).val) + j.val
    omega
  | ⟨3, _⟩ =>
    show k0_off1 k 3 + 1 * (2 * (y 3).val + l.val) = 2 * (k0_off2 k 3 + 1 * (y 3).val) + l.val
    omega

/-- So is every piece of the trips before the n-th. -/
theorem loop_pieces (𝒱 : Variants) (c : Dev nD) (bd : Option 𝒱.V) (i : grid0.Coords)
    (arg2 : Memref sig .tc .vmem S1x16x256x256 .f32) (harg2 : arg2.IsWhole) (arg3 : Memref sig .tc .vmem S1x8x128x128 .f32) (harg3 : arg3.IsWhole)
    (x0 : Vec Ideal S1x16x256x256 .f32) :
    ∀ n : ℕ, ∀ p ∈ pb_k0_t1 (F := Ideal) 𝒱 c bd i arg2 harg2 arg3 harg3 (harg2.unread x0) n,
      ∀ y : p.1.shape.Idx, p.2 y = pooledBlock x0 (p.1.emb y)
  | 0 => fun p hp => absurd hp List.not_mem_nil
  | n + 1 => fun p hp => by
    rw [pb_k0_t1.eq_2] at hp
    unfold pb_k0_t1Step at hp
    by_cases hn : n < k0_t1_loop.trips
    · rw [dif_pos hn] at hp
      rcases List.mem_append.mp hp with h | h
      · exact trip_pieces 𝒱 c bd i arg2 harg2 arg3 harg3 x0 ⟨n, hn⟩ p h
      · exact loop_pieces 𝒱 c bd i arg2 harg2 arg3 harg3 x0 n p h
    · rw [dif_neg hn] at hp
      exact loop_pieces 𝒱 c bd i arg2 harg2 arg3 harg3 x0 n p hp

/-- The output's staging block after the body: the pooled block of the input's staging block. -/
theorem out_eq (c : Dev nD) (i : grid0.Coords)
    (arg2 : Memref sig .tc .vmem S1x16x256x256 .f32) (harg2 : arg2.IsWhole) (arg3 : Memref sig .tc .vmem S1x8x128x128 .f32) (harg3 : arg3.IsWhole)
    (x0 : Vec Ideal S1x16x256x256 .f32) :
    out0_A_1 (F := Ideal) c i arg2 harg2 arg3 harg3 x0 = pooledBlock x0 := by
  funext y
  unfold out0_A_1
  refine View.read_writes_apply_of_pieces VO0_1 _ (pooledBlock x0) _ ?_ y (cover0_A_1 c i arg2 harg2 arg3 harg3 x0 y)
  unfold kernelRun0_A
  dsimp only
  exact loop_pieces Variants.none c none i arg2 harg2 arg3 harg3 x0 _

end Cert.KernelIdeal.Block

end
-- ==== Proof.PoolArray.lean ====
/-
  From the blocks to the whole array: after the kernel's run the result array is the pooled input array.

  The grid has 8 × 4 points. Point (b, g) stages depth planes 16g … 16g + 15 of batch entry b of the input — block (b, g, 0, 0)
  of extents [1, 16, 256, 256] — and writes back depth planes 8g … 8g + 7 of batch entry b of the result — block (b, g, 0, 0)
  of extents [1, 8, 128, 128]. Pooling commutes with this cutting: entry (0, e, h, w) of the pooled input block is entry
  (b, 8g + e, h, w) of the pooled array, because 16g + 2e + i = 2(8g + e) + i (`flushed_eq`). The 32 output blocks cover
  the result array, the block of (b, d, h, w) being that of point (b, d / 8) (`covered`). So the array ends as the pooled
  array (`final`), and the run is restated with that (`run`).
-/
import proofs.«112044_j13537736917667_2_alg».proof.Proof.Gen.KernelIdeal.Value
import proofs.«112044_j13537736917667_2_alg».proof.Proof.PoolBlock
import Idealize.ShloMosaic.Lib.Pipeline.Value

set_option maxRecDepth 16384

noncomputable section

namespace Cert.KernelIdeal.Whole

open Cert.KernelIdeal Cert.KernelIdeal.Gen Idealize.ShloMosaic Idealize.ShloMosaic.TcCoe Idealize.ShloMosaic.ValueIdx
open Idealize.SL.Sem Cert.Pool
open Idealize.ShloMosaic.Pipeline (Dat)

variable (m : (ℓ : Loc nD τ sig) → Buf (Elt Ideal) ℓ) (ρ : Dev nD → PrngReg)

/-- The two windows move together: at every grid point the input's and the output's block indices agree on the batch and
    depth axes, both are 0 on the row and column axes, and the output's stay inside 8 × 4. -/
theorem index_facts : ∀ t : Fin cfg0.N,
    win0_0.index t (0 : Fin 4) = win0_1.index t (0 : Fin 4) ∧ win0_0.index t (1 : Fin 4) = win0_1.index t (1 : Fin 4)
    ∧ win0_0.index t (2 : Fin 4) = 0 ∧ win0_0.index t (3 : Fin 4) = 0
    ∧ win0_1.index t (2 : Fin 4) = 0 ∧ win0_1.index t (3 : Fin 4) = 0
    ∧ win0_1.index t (0 : Fin 4) ≤ 7 ∧ win0_1.index t (1 : Fin 4) ≤ 3 :=
  (by decide +kernel : ∀ t : Fin grid0.N, _)

/-- Every output block (b, g, 0, 0) with b < 8, g < 4 is some point's. -/
theorem index_onto : ∀ (b : Fin 8) (g : Fin 4), ∃ t : Fin cfg0.N, win0_1.index t = ![b.val, g.val, 0, 0] :=
  (by decide +kernel : ∀ (b : Fin 8) (g : Fin 4), ∃ t : Fin grid0.N, win0_1.index t = ![b.val, g.val, 0, 0])

/-- What point t writes back is block t of the pooled array. -/
theorem flushed_eq (c : Dev nD) (t : Fin cfg0.N) :
    (dats m 0 c).flushed 1 t = ((cfg0.win 1).blk t).view.read (Elt Ideal) (pooled (V m c main_arg0)) := by
  rw [Value.flushed1_A, Block.out_eq]
  obtain ⟨e0, e1, e2, e3, e4, e5, -, -⟩ := index_facts t
  funext y
  show pooledBlock (iblk m c 0 t) y = pooled (V m c main_arg0) (((cfg0.win 1).blk t).view.emb y)
  unfold pooledBlock pooled
  congr 1
  funext i j l
  show V m c main_arg0 (((cfg0.win 0).blk t).view.emb _) = V m c main_arg0 _
  refine congrArg (V m c main_arg0) (funext fun a => Fin.ext ?_)
  have hy0 : (y 0).val < 1 := (y 0).isLt
  have hy1 : (y 1).val < 8 := (y 1).isLt
  have hy2 : (y 2).val < 128 := (y 2).isLt
  have hy3 : (y 3).val < 128 := (y 3).isLt
  match a with
  | ⟨0, _⟩ =>
    show win0_0.index t (0 : Fin 4) * 1 + 1 * (y 0).val = win0_1.index t (0 : Fin 4) * 1 + 1 * (y 0).val
    omega
  | ⟨1, _⟩ =>
    show win0_0.index t (1 : Fin 4) * 16 + 1 * (2 * (y 1).val + i.val) = 2 * (win0_1.index t (1 : Fin 4) * 8 + 1 * (y 1).val) + i.val
    omega
  | ⟨2, _⟩ =>
    show win0_0.index t (2 : Fin 4) * 256 + 1 * (2 * (y 2).val + j.val) = 2 * (win0_1.index t (2 : Fin 4) * 128 + 1 * (y 2).val) + j.val
    omega
  | ⟨3, _⟩ =>
    show win0_0.index t (3 : Fin 4) * 256 + 1 * (2 * (y 3).val + l.val) = 2 * (win0_1.index t (3 : Fin 4) * 128 + 1 * (y 3).val) + l.val
    omega

/-- An index of the result array is in point t's block iff each coordinate is in the block's range on its axis. -/
theorem mem_blk (t : Fin cfg0.N) (q : S8x32x128x128.Idx) :
    q ∈ ((cfg0.win 1).blk t).view.set ↔ ∀ a : Fin 4, win0_1.index t a * S1x8x128x128.size a ≤ (q a).val ∧ (q a).val < win0_1.index t a * S1x8x128x128.size a + S1x8x128x128.size a := by
  show q ∈ ((View.whole main_v0).slice (win0_1.rect t)).set ↔ _
  rw [View.set_slice_whole, Rect.mem_set_unit]
  exact Iff.rfl

/-- Every index of the result array is in some point's block: (b, d, h, w) in that of the point with block (b, d / 8, 0, 0). -/
theorem covered (q : S8x32x128x128.Idx) :
    ∃ t : Fin cfg0.N, (cfg0.win 1).flush t = true ∧ q ∈ ((cfg0.win 1).blk t).view.set := by
  have h0 : (q 0).val < 8 := (q 0).isLt
  have h1 : (q 1).val < 32 := (q 1).isLt
  have h2 : (q 2).val < 128 := (q 2).isLt
  have h3 : (q 3).val < 128 := (q 3).isLt
  obtain ⟨t, ht⟩ := index_onto ⟨(q 0).val, h0⟩ ⟨(q 1).val / 8, by omega⟩
  have i0 : win0_1.index t (0 : Fin 4) = (q 0).val := congrFun ht 0
  have i1 : win0_1.index t (1 : Fin 4) = (q 1).val / 8 := congrFun ht 1
  have i2 : win0_1.index t (2 : Fin 4) = 0 := congrFun ht 2
  have i3 : win0_1.index t (3 : Fin 4) = 0 := congrFun ht 3
  refine ⟨t, flush0_1 t, ?_⟩
  rw [mem_blk]
  intro a
  match a with
  | ⟨0, _⟩ => show win0_1.index t (0 : Fin 4) * 1 ≤ (q 0).val ∧ (q 0).val < win0_1.index t (0 : Fin 4) * 1 + 1; omega
  | ⟨1, _⟩ => show win0_1.index t (1 : Fin 4) * 8 ≤ (q 1).val ∧ (q 1).val < win0_1.index t (1 : Fin 4) * 8 + 8; omega
  | ⟨2, _⟩ => show win0_1.index t (2 : Fin 4) * 128 ≤ (q 2).val ∧ (q 2).val < win0_1.index t (2 : Fin 4) * 128 + 128; omega
  | ⟨3, _⟩ => show win0_1.index t (3 : Fin 4) * 128 ≤ (q 3).val ∧ (q 3).val < win0_1.index t (3 : Fin 4) * 128 + 128; omega

/-- The result array after the run is the pooled input array. -/
theorem final (c : Dev nD) : (dats m 0 c).arrAt 1 cfg0.N = pooled (m ((c : Thread nD τ).loc main_arg0)) :=
  (dats m 0 c).arrAt_eq_of_cover 1 (pooled (V m c main_arg0)) (fun t _ => flushed_eq m c t) covered

/-- The kernel's run, read: every weakly fair execution ends with the result array at the pooled input array and the
    input array unchanged. -/
theorem run : θ_run defs (onTc (τ := τ) (main (F := Ideal))) ⟨m, fun _ => 0, ρ⟩ fun r => ∀ c : Dev nD,
      r.2.mem ((c : Thread nD τ).loc main_v0) = pooled (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (Value.run_blocks m ρ)

end Cert.KernelIdeal.Whole

end
-- ==== Proof.lean ====
/-
  Max pooling, kernel against reference, on the extended reals.

  The input x has shape [8, 64, 256, 256]; both programs produce an array of shape [8, 32, 128, 128].

  The reference takes, at (b, d, h, w), the maximum over the 2 × 2 × 2 window of x at (b, 2d, 2h, 2w), one entry after the
  other in lexicographic order, starting from −∞.

  The kernel cuts the depth axis into 4 chunks of 16 planes and runs a grid of 8 × 4 points, one per batch entry and chunk.
  At a point it loops over the 8 pairs of planes of the chunk: the entrywise maximum of the two planes, then of rows 2h and
  2h + 1, then of columns 2w and 2w + 1, stored as one plane of the point's [1, 8, 128, 128] output block.

  Both are the greatest of the same eight entries x(b, 2d + i, 2h + j, 2w + l): the maximum of finitely many extended reals
  does not depend on the order or the bracketing, and −∞ is its identity (Proof/PoolSpec.lean, `max8_of_foldl`). No
  finiteness of the entries is needed, so the precondition is never opened.

  The modules: PoolSpec (the pooled array as a function, and the law), PoolWindow (the reference's windowed reduction is that
  function), PoolBody (one trip's value at an index), PoolBlock (the loop's stores leave the pooled block in the staging
  buffer), PoolArray (the blocks cover the array: the kernel's result is that function). The three frames are the generated
  runs; the idealization rewrote nothing, so `preserves` has nothing to show.
-/
import proofs.«112044_j13537736917667_2_alg».proof.Defs
import proofs.«112044_j13537736917667_2_alg».proof.Proof.Gen.Kernel
import proofs.«112044_j13537736917667_2_alg».proof.Proof.Gen.Kernel.Frame
import proofs.«112044_j13537736917667_2_alg».proof.Proof.Gen.KernelIdeal
import proofs.«112044_j13537736917667_2_alg».proof.Proof.Gen.KernelIdeal.Frame
import proofs.«112044_j13537736917667_2_alg».proof.Proof.Gen.KernelIdeal.Value
import proofs.«112044_j13537736917667_2_alg».proof.Proof.Gen.ReferenceIdeal
import proofs.«112044_j13537736917667_2_alg».proof.Proof.Gen.ReferenceIdeal.Run
import proofs.«112044_j13537736917667_2_alg».proof.Proof.Gen.Pre_finite_inputs
import proofs.«112044_j13537736917667_2_alg».proof.Proof.PoolWindow
import proofs.«112044_j13537736917667_2_alg».proof.Proof.PoolArray
import Idealize.ShloMosaic.Adequacy
import Idealize.ShloMosaic.Init

noncomputable section

namespace Cert.Proof

open Idealize.ShloMosaic Idealize.ShloMosaic.TcCoe Idealize.SL.Sem

/-- The kernel as printed runs, and leaves its argument as it found it. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the idealized reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization changed no operation. -/
theorem preserves : Cert.preserves_Kernel_KernelIdeal := trivial

/-- From memories that agree on x, the kernel ends with the pooled array of x in its result (Proof/PoolArray.lean) and the
    reference with the windowed maximum of x from −∞, which is the pooled array (Proof/PoolWindow.lean). -/
theorem algebraic : Cert.algebraic_KernelIdeal_ReferenceIdeal := by
  intro m ρ m' ρ' _ hagree
  refine ⟨fun c => Cert.Pool.pooled (m ((c.tc : Thread Cert.KernelIdeal.nD Cert.KernelIdeal.τ).loc Cert.KernelIdeal.main_arg0)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [hagree c]
  exact Cert.Pool.reduceWindow_max_eq_pooled _ _ _ _ Cert.Pool.ninf_eq_bot

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
